-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x129x384 : Shape := ⟨3, ![128, 129, 384]⟩
abbrev S128x128x16 : Shape := ⟨3, ![128, 128, 16]⟩
abbrev S129x384 : Shape := ⟨2, ![129, 384]⟩
abbrev S384 : Shape := ⟨1, ![384]⟩
abbrev S_ : Shape := ⟨0, ![]⟩

class Facts : Prop where
  bcast_S_S128x129x384 : S_.BroadcastsInDim S128x129x384 (![] : Fin 0 → Fin S128x129x384.rank)
  reducesTo_S128x129x384_S_d0_1_2 : S128x129x384.ReducesTo [0, 1, 2] S_
  h_S_ : 0 < S_.numel
  bcast_S_S128x128x16 : S_.BroadcastsInDim S128x128x16 (![] : Fin 0 → Fin S128x128x16.rank)
  reducesTo_S128x128x16_S_d0_1_2 : S128x128x16.ReducesTo [0, 1, 2] S_
  bcast_S_S129x384 : S_.BroadcastsInDim S129x384 (![] : Fin 0 → Fin S129x384.rank)
  reducesTo_S129x384_S_d0_1 : S129x384.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg1 : FVec F S128x128x16 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_cst_6 : FVec F S_ .f32 := constant S_ .f32 0x00000000#32
  let main_v19 : FVec F S128x128x16 .f32 := broadcastInDim S128x128x16 ![] bcast_S_S128x128x16 main_cst_6
  let main_v20 : IVec S128x128x16 1 := cmpf .oge main_arg1 main_v19
  let main_c_7 : IVec S_ 1 := constantI S_ 1 1#1
  let main_v21 : IVec S_ 1 := (fun x v => Host.reduce IntOp.andi x v reducesTo_S128x128x16_S_d0_1_2 h_S_) main_v20 main_c_7
  let main_v22 : IVec S_ 1 := andi main_v18 main_v21
  main_v22

def fn {F : FTy → Type} [FloatOps F] (main_arg0 : FVec F S128x129x384 .f32) (main_arg1 : FVec F S128x128x16 .f32) (main_arg2 : FVec F S129x384 .f32) (main_arg3 : FVec F S384 .f32) (main_arg4 : IVec S128x128x16 32) : IVec S_ 1 :=
  let main_v0 : FVec F S128x129x384 .f32 := Host.absf main_arg0
  let main_cst : FVec F S_ .f32 := constant S_ .f32 0x7F800000#32
  let main_v1 : FVec F S128x129x384 .f32 := broadcastInDim S128x129x384 ![] bcast_S_S128x129x384 main_cst
  let main_v2 : IVec S128x129x384 1 := cmpf .olt main_v0 main_v1
  let main_c : IVec S_ 1 := constantI S_ 1 1#1
  let main_v3 : IVec S_ 1 := (fun x v => Host.reduce IntOp.andi x v reducesTo_S128x129x384_S_d0_1_2 h_S_) main_v2 main_c
  let main_v4 : FVec F S128x128x16 .f32 := Host.absf main_arg1
  let main_cst_0 : FVec F S_ .f32 := constant S_ .f32 0x7F800000#32
  let main_v5 : FVec F S128x128x16 .f32 := broadcastInDim S128x128x16 ![] bcast_S_S128x128x16 main_cst_0
  let main_v6 : IVec S128x128x16 1 := cmpf .olt main_v4 main_v5
  let main_c_1 : IVec S_ 1 := constantI S_ 1 1#1
  let main_v7 : IVec S_ 1 := (fun x v => Host.reduce IntOp.andi x v reducesTo_S128x128x16_S_d0_1_2 h_S_) main_v6 main_c_1
  let main_v8 : IVec S_ 1 := andi main_v3 main_v7
  let main_v9 : FVec F S129x384 .f32 := Host.absf main_arg2
  let main_cst_2 : FVec F S_ .f32 := constant S_ .f32 0x7F800000#32
  let main_v10 : FVec F S129x384 .f32 := broadcastInDim S129x384 ![] bcast_S_S129x384 main_cst_2
  let main_v11 : IVec S129x384 1 := cmpf .olt main_v9 main_v10
  let main_c_3 : IVec S_ 1 := constantI S_ 1 1#1
  let main_v12 : IVec S_ 1 := (fun x v => Host.reduce IntOp.andi x v reducesTo_S129x384_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg1 main_v13 main_v16
-- ==== Kernel.lean ====
abbrev S128x129x384 : Shape := ⟨3, ![128, 129, 384]⟩
abbrev S128x128x16 : Shape := ⟨3, ![128, 128, 16]⟩
abbrev S129x384 : Shape := ⟨2, ![129, 384]⟩
abbrev S384 : Shape := ⟨1, ![384]⟩
abbrev S128x1x384 : Shape := ⟨3, ![128, 1, 384]⟩
abbrev S128x128x384 : Shape := ⟨3, ![128, 128, 384]⟩
abbrev S128x384 : Shape := ⟨2, ![128, 384]⟩
abbrev S_ : Shape := ⟨0, ![]⟩
abbrev S128x128 : Shape := ⟨2, ![128, 128]⟩
abbrev S128x128x1 : Shape := ⟨3, ![128, 128, 1]⟩
abbrev S16384x384 : Shape := ⟨2, ![16384, 384]⟩
abbrev S262144 : Shape := ⟨1, ![262144]⟩
abbrev S262144x1 : Shape := ⟨2, ![262144, 1]⟩
abbrev S262144x384 : Shape := ⟨2, ![262144, 384]⟩
abbrev S128x128x16x384 : Shape := ⟨4, ![128, 128, 16, 384]⟩
abbrev S128x128x16x1 : Shape := ⟨4, ![128, 128, 16, 1]⟩
abbrev S16x128x384 : Shape := ⟨3, ![16, 128, 384]⟩
abbrev S16x128 : Shape := ⟨2, ![16, 128]⟩
abbrev S16x128x1 : Shape := ⟨3, ![16, 128, 1]⟩
abbrev S1x1x384 : Shape := ⟨3, ![1, 1, 384]⟩
abbrev S1x128x384 : Shape := ⟨3, ![1, 128, 384]⟩

abbrev nBuf : Space → Nat
  | .hbm => 38
  | .vmem => 8
  | .smem => 0
  | _ => 0

abbrev bufTy : (tb : Table) → Fin (tcTables nBuf tb) → BufTy
  | .hbm, ⟨0, _⟩ => ⟨S128x129x384, .f32⟩
  | .hbm, ⟨1, _⟩ => ⟨S128x128x16, .f32⟩
  | .hbm, ⟨2, _⟩ => ⟨S129x384, .f32⟩
  | .hbm, ⟨3, _⟩ => ⟨S384, .f32⟩
  | .hbm, ⟨4, _⟩ => ⟨S128x128x16, .i32⟩
  | .hbm, ⟨5, _⟩ => ⟨S128x1x384, .f32⟩
  | .hbm, ⟨6, _⟩ => ⟨S128x128x384, .f32⟩
  | .hbm, ⟨7, _⟩ => ⟨S128x384, .f32⟩
  | .hbm, ⟨8, _⟩ => ⟨S_, .f32⟩
  | .hbm, ⟨9, _⟩ => ⟨S128x128x16, .f32⟩
  | .hbm, ⟨10, _⟩ => ⟨S128x128x16, .f32⟩
  | .hbm, ⟨11, _⟩ => ⟨S_, .f32⟩
  | .hbm, ⟨12, _⟩ => ⟨S128x128x16, .f32⟩
  | .hbm, ⟨13, _⟩ => ⟨S128x128x16, .f32⟩
  | .hbm, ⟨14, _⟩ => ⟨S_, .f32⟩
  | .hbm, ⟨15, _⟩ => ⟨S128x128, .f32⟩
  | .hbm, ⟨16, _⟩ => ⟨S128x128x1, .f32⟩
  | .hbm, ⟨17, _⟩ => ⟨S128x128x16, .f32⟩
  | .hbm, ⟨18, _⟩ => ⟨S128x128x16, .f32⟩
  | .hbm, ⟨19, _⟩ => ⟨S16384x384, .f32⟩
  | .hbm, ⟨20, _⟩ => ⟨S262144, .i32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x384, .f32⟩
  | .hbm, ⟨30, _⟩ => ⟨S128x128x16x384, .f32⟩
  | .hbm, ⟨31, _⟩ => ⟨S128x128x16x1, .f32⟩
  | .hbm, ⟨32, _⟩ => ⟨S128x128x16x384, .f32⟩
  | .hbm, ⟨33, _⟩ => ⟨S128x128x16x384, .f32⟩
  | .hbm, ⟨34, _⟩ => ⟨S_, .f32⟩
  | .hbm, ⟨35, _⟩ => ⟨S128x128x384, .f32⟩
  | .hbm, ⟨36, _⟩ => ⟨S128x128x384, .f32⟩
  | .hbm, ⟨37, _⟩ => ⟨S128x129x384, .f32⟩
  | .local _ .vmem, ⟨0, _⟩ => ⟨S16x128x384, .f32⟩
  | .local _ .vmem, ⟨1, _⟩ => ⟨S16x128x384, .f32⟩
  | .local _ .vmem, ⟨2, _⟩ => ⟨S16x128x384, .f32⟩
  | .local _ .vmem, ⟨3, _⟩ => ⟨S16x128x384, .f32⟩
  | .local _ .vmem, ⟨4, _⟩ => ⟨S128x384, .f32⟩
  | .local _ .vmem, ⟨5, _⟩ => ⟨S384, .f32⟩
  | .local _ .vmem, ⟨6, _⟩ => ⟨S16x128x384, .f32⟩
  | .local _ .vmem, ⟨7, _⟩ => ⟨S16x128x384, .f32⟩
  | _, _ => ⟨S128x129x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S128x129x384_S128x1x384_0_0_0 : S128x129x384.Slices ![0, 0, 0] S128x1x384
  slices_S128x129x384_S128x128x384_0_1_0 : S128x129x384.Slices ![0, 1, 0] S128x128x384
  slices_S129x384_S128x384_1_0 : S129x384.Slices ![1, 0] S128x384
  bcast_S_S128x128x16 : S_.BroadcastsInDim S128x128x16 (![] : Fin 0 → Fin S128x128x16.rank)
  reducesTo_S128x128x16_S128x128_d2 : S128x128x16.ReducesTo [2] S128x128
  h_S_ : 0 < S_.numel
  bcast_S128x128_S128x128x1_0_1 : S128x128.BroadcastsInDim S128x128x1 (![0, 1] : Fin 2 → Fin S128x128x1.rank)
  bcast_S128x128x1_S128x128x16_0_1_2 : S128x128x1.BroadcastsInDim S128x128x16 (![0, 1, 2] : Fin 3 → Fin S128x128x16.rank)
  shapeCasts_S128x128x384_S16384x384 : S128x128x384.ShapeCasts S16384x384
  shapeCasts_S128x128x16_S262144 : S128x128x16.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  shapeCasts_S262144x384_S128x128x16x384 : S262144x384.ShapeCasts S128x128x16x384
  bcast_S128x128x16_S128x128x16x1_0_1_2 : S128x128x16.BroadcastsInDim S128x128x16x1 (![0, 1, 2] : Fin 3 → Fin S128x128x16x1.rank)
  bcast_S128x128x16x1_S128x128x16x384_0_1_2_3 : S128x128x16x1.BroadcastsInDim S128x128x16x384 (![0, 1, 2, 3] : Fin 4 → Fin S128x128x16x384.rank)
  reducesTo_S128x128x16x384_S128x128x384_d2 : S128x128x16x384.ReducesTo [2] S128x128x384
  inb_S16x128x384_S16x128x384_0_0_0 : ∀ a, (![0, 0, 0] : Fin 3 → Nat) a + S16x128x384.size a ≤ S16x128x384.size a
  h_S16x128x384 : 0 < S16x128x384.numel
  shapeCasts_S16x128x384_S16x128x384 : S16x128x384.ShapeCasts S16x128x384
  reduces_S16x128x384_S16x128 : S16x128x384.Reduces [2] S16x128
  shapeCasts_S16x128_S16x128x1 : S16x128.ShapeCasts S16x128x1
  broadcasts_S16x128x1_S16x128x384 : S16x128x1.Broadcasts S16x128x384
  inb_S384_S384_0 : ∀ a, (![0] : Fin 1 → Nat) a + S384.size a ≤ S384.size a
  h_S384 : 0 < S384.numel
  shapeCasts_S384_S1x1x384 : S384.ShapeCasts S1x1x384
  broadcasts_S1x1x384_S16x128x384 : S1x1x384.Broadcasts S16x128x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  shapeCasts_S128x384_S1x128x384 : S128x384.ShapeCasts S1x128x384
  broadcasts_S1x128x384_S16x128x384 : S1x128x384.Broadcasts S16x128x384
  concatenates_S128x1x384_S128x128x384_S128x129x384_d1 : Shape.Concatenates [S128x1x384, S128x128x384] S128x129x384 1
  gather_S16384x384_S262144x1_S262144x384_1_0_n_n_0_1_1384_wf : GatherDims.WF S16384x384 S262144x1 S262144x384 [1] [0] [] [0] [] 1 ![1, 384]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x384.size a ≤ S128x128x384.size a
  hwx0_0 : ∀ i : grid0.Coords, EltTy.bits .f32 = 32 ∨ (Rect.block (s := S128x128x384) S16x128x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x384.size a ≤ S128x128x384.size a
  hwx0_1 : ∀ i : grid0.Coords, EltTy.bits .f32 = 32 ∨ (Rect.block (s := S128x128x384) S16x128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .f32 = 32 ∨ (Rect.block (s := S128x384) S128x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384.size a ≤ S384.size a
  hwx0_3 : ∀ i : grid0.Coords, EltTy.bits .f32 = 32 ∨ (Rect.block (s := S384) S384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128x384.size a ≤ S128x128x384.size a
  hwx0_4 : ∀ i : grid0.Coords, EltTy.bits .f32 = 32 ∨ (Rect.block (s := S128x128x384) S16x128x384.size (cc0_transform_4 i) (hinb0_4 i)).WholeWords (EltTy.packing .f32)

variable [Facts₀]

def gather_S16384x384_S262144x1_S262144x384_1_0_n_n_0_1_1384 : GatherDims S16384x384 S262144x1 S262144x384 where
  offsetDims := [1]
  collapsedSliceDims := [0]
  operandBatchingDims := []
  startIndicesBatchingDims := []
  startIndexMap := [0]
  indexVectorDim := 1
  sliceSizes := ![1, 384]
  wf := gather_S16384x384_S262144x1_S262144x384_1_0_n_n_0_1_1384_wf

abbrev win0_0 : Pipeline.Window sig grid0 :=
  Pipeline.Window.ofSpec (Memref.whole main_v24) S16x128x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S16x128x384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x129x384 : Shape := ⟨3, ![128, 129, 384]⟩
abbrev S128x128x16 : Shape := ⟨3, ![128, 128, 16]⟩
abbrev S129x384 : Shape := ⟨2, ![129, 384]⟩
abbrev S384 : Shape := ⟨1, ![384]⟩
abbrev S128x1x384 : Shape := ⟨3, ![128, 1, 384]⟩
abbrev S128x128x384 : Shape := ⟨3, ![128, 128, 384]⟩
abbrev S128x384 : Shape := ⟨2, ![128, 384]⟩
abbrev S16384x384 : Shape := ⟨2, ![16384, 384]⟩
abbrev S262144 : Shape := ⟨1, ![262144]⟩
abbrev S_ : Shape := ⟨0, ![]⟩
abbrev S262144x1 : Shape := ⟨2, ![262144, 1]⟩
abbrev S262144x384 : Shape := ⟨2, ![262144, 384]⟩
abbrev S128x128x16x384 : Shape := ⟨4, ![128, 128, 16, 384]⟩
abbrev S128x128x1x384 : Shape := ⟨4, ![128, 128, 1, 384]⟩
abbrev S1x128x384 : Shape := ⟨3, ![1, 128, 384]⟩
abbrev S128x128 : Shape := ⟨2, ![128, 128]⟩
abbrev S128x128x1 : Shape := ⟨3, ![128, 128, 1]⟩
abbrev S128x128x16x1 : Shape := ⟨4, ![128, 128, 16, 1]⟩
abbrev S1x1x384 : Shape := ⟨3, ![1, 1, 384]⟩

abbrev nBuf : Space → Nat
  | .hbm => 60
  | .vmem => 0
  | .smem => 0
  | _ => 0

abbrev bufTy : (tb : Table) → Fin (tcTables nBuf tb) → BufTy
  | .hbm, ⟨0, _⟩ => ⟨S128x129x384, .f32⟩
  | .hbm, ⟨1, _⟩ => ⟨S128x128x16, .f32⟩
  | .hbm, ⟨2, _⟩ => ⟨S129x384, .f32⟩
  | .hbm, ⟨3, _⟩ => ⟨S384, .f32⟩
  | .hbm, ⟨4, _⟩ => ⟨S128x128x16, .i32⟩
  | .hbm, ⟨5, _⟩ => ⟨S128x1x384, .f32⟩
  | .hbm, ⟨6, _⟩ => ⟨S128x128x384, .f32⟩
  | .hbm, ⟨7, _⟩ => ⟨S128x384, .f32⟩
  | .hbm, ⟨8, _⟩ => ⟨S16384x384, .f32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S262144x384, .f32⟩
  | .hbm, ⟨19, _⟩ => ⟨S128x128x16x384, .f32⟩
  | .hbm, ⟨20, _⟩ => ⟨S128x128x1x384, .f32⟩
  | .hbm, ⟨21, _⟩ => ⟨S128x128x16x384, .f32⟩
  | .hbm, ⟨22, _⟩ => ⟨S128x128x16x384, .f32⟩
  | .hbm, ⟨23, _⟩ => ⟨S1x128x384, .f32⟩
  | .hbm, ⟨24, _⟩ => ⟨S128x128x384, .f32⟩
  | .hbm, ⟨25, _⟩ => ⟨S128x128x384, .f32⟩
  | .hbm, ⟨26, _⟩ => ⟨S_, .f32⟩
  | .hbm, ⟨27, _⟩ => ⟨S128x128x16, .f32⟩
  | .hbm, ⟨28, _⟩ => ⟨S128x128x16, .f32⟩
  | .hbm, ⟨29, _⟩ => ⟨S_, .f32⟩
  | .hbm, ⟨30, _⟩ => ⟨S128x128x16, .f32⟩
  | .hbm, ⟨31, _⟩ => ⟨S128x128x16, .f32⟩
  | .hbm, ⟨32, _⟩ => ⟨S_, .f32⟩
  | .hbm, ⟨33, _⟩ => ⟨S128x128, .f32⟩
  | .hbm, ⟨34, _⟩ => ⟨S128x128x1, .f32⟩
  | .hbm, ⟨35, _⟩ => ⟨S128x128x16, .f32⟩
  | .hbm, ⟨36, _⟩ => ⟨S128x128x16, .f32⟩
  | .hbm, ⟨37, _⟩ => ⟨S128x128x16x1, .f32⟩
  | .hbm, ⟨38, _⟩ => ⟨S128x128x16x384, .f32⟩
  | .hbm, ⟨39, _⟩ => ⟨S128x128x16x384, .f32⟩
  | .hbm, ⟨40, _⟩ => ⟨S_, .f32⟩
  | .hbm, ⟨41, _⟩ => ⟨S128x128x384, .f32⟩
  | .hbm, ⟨42, _⟩ => ⟨S128x128x384, .f32⟩
  | .hbm, ⟨43, _⟩ => ⟨S_, .f32⟩
  | .hbm, ⟨44, _⟩ => ⟨S128x128, .f32⟩
  | .hbm, ⟨45, _⟩ => ⟨S128x128x1, .f32⟩
  | .hbm, ⟨46, _⟩ => ⟨S_, .f32⟩
  | .hbm, ⟨47, _⟩ => ⟨S128x128x1, .f32⟩
  | .hbm, ⟨48, _⟩ => ⟨S128x128x1, .f32⟩
  | .hbm, ⟨49, _⟩ => ⟨S_, .f32⟩
  | .hbm, ⟨50, _⟩ => ⟨S128x128x1, .f32⟩
  | .hbm, ⟨51, _⟩ => ⟨S128x128x1, .f32⟩
  | .hbm, ⟨52, _⟩ => ⟨S128x128x1, .f32⟩
  | .hbm, ⟨53, _⟩ => ⟨S128x128x384, .f32⟩
  | .hbm, ⟨54, _⟩ => ⟨S128x128x384, .f32⟩
  | .hbm, ⟨55, _⟩ => ⟨S1x1x384, .f32⟩
  | .hbm, ⟨56, _⟩ => ⟨S128x128x384, .f32⟩
  | .hbm, ⟨57, _⟩ => ⟨S128x128x384, .f32⟩
  | .hbm, ⟨58, _⟩ => ⟨S128x128x384, .f32⟩
  | .hbm, ⟨59, _⟩ => ⟨S128x129x384, .f32⟩
  | _, _ => ⟨S128x129x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  slices_S128x129x384_S128x1x384_0_0_0 : S128x129x384.Slices ![0, 0, 0] S128x1x384
  slices_S128x129x384_S128x128x384_0_1_0 : S128x129x384.Slices ![0, 1, 0] S128x128x384
  slices_S129x384_S128x384_1_0 : S129x384.Slices ![1, 0] S128x384
  shapeCasts_S128x128x384_S16384x384 : S128x128x384.ShapeCasts S16384x384
  shapeCasts_S128x128x16_S262144 : S128x128x16.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  shapeCasts_S262144x384_S128x128x16x384 : S262144x384.ShapeCasts S128x128x16x384
  bcast_S128x128x384_S128x128x1x384_0_1_3 : S128x128x384.BroadcastsInDim S128x128x1x384 (![0, 1, 3] : Fin 3 → Fin S128x128x1x384.rank)
  bcast_S128x128x1x384_S128x128x16x384_0_1_2_3 : S128x128x1x384.BroadcastsInDim S128x128x16x384 (![0, 1, 2, 3] : Fin 4 → Fin S128x128x16x384.rank)
  bcast_S128x384_S1x128x384_1_2 : S128x384.BroadcastsInDim S1x128x384 (![1, 2] : Fin 2 → Fin S1x128x384.rank)
  bcast_S1x128x384_S128x128x384_0_1_2 : S1x128x384.BroadcastsInDim S128x128x384 (![0, 1, 2] : Fin 3 → Fin S128x128x384.rank)
  bcast_S_S128x128x16 : S_.BroadcastsInDim S128x128x16 (![] : Fin 0 → Fin S128x128x16.rank)
  reducesTo_S128x128x16_S128x128_d2 : S128x128x16.ReducesTo [2] S128x128
  h_S_ : 0 < S_.numel
  bcast_S128x128_S128x128x1_0_1 : S128x128.BroadcastsInDim S128x128x1 (![0, 1] : Fin 2 → Fin S128x128x1.rank)
  bcast_S128x128x1_S128x128x16_0_1_2 : S128x128x1.BroadcastsInDim S128x128x16 (![0, 1, 2] : Fin 3 → Fin S128x128x16.rank)
  bcast_S128x128x16_S128x128x16x1_0_1_2 : S128x128x16.BroadcastsInDim S128x128x16x1 (![0, 1, 2] : Fin 3 → Fin S128x128x16x1.rank)
  bcast_S128x128x16x1_S128x128x16x384_0_1_2_3 : S128x128x16x1.BroadcastsInDim S128x128x16x384 (![0, 1, 2, 3] : Fin 4 → Fin S128x128x16x384.rank)
  reducesTo_S128x128x16x384_S128x128x384_d2 : S128x128x16x384.ReducesTo [2] S128x128x384
  reducesTo_S128x128x384_S128x128_d2 : S128x128x384.ReducesTo [2] S128x128
  bcast_S_S128x128x1 : S_.BroadcastsInDim S128x128x1 (![] : Fin 0 → Fin S128x128x1.rank)
  bcast_S128x128x1_S128x128x384_0_1_2 : S128x128x1.BroadcastsInDim S128x128x384 (![0, 1, 2] : Fin 3 → Fin S128x128x384.rank)
  bcast_S384_S1x1x384_2 : S384.BroadcastsInDim S1x1x384 (![2] : Fin 1 → Fin S1x1x384.rank)
  bcast_S1x1x384_S128x128x384_0_1_2 : S1x1x384.BroadcastsInDim S128x128x384 (![0, 1, 2] : Fin 3 → Fin S128x128x384.rank)
  concatenates_S128x1x384_S128x128x384_S128x129x384_d1 : Shape.Concatenates [S128x1x384, S128x128x384] S128x129x384 1
  gather_S16384x384_S262144x1_S262144x384_1_0_n_n_0_1_1384_wf : GatherDims.WF S16384x384 S262144x1 S262144x384 [1] [0] [] [0] [] 1 ![1, 384]

variable [Facts₀]

def gather_S16384x384_S262144x1_S262144x384_1_0_n_n_0_1_1384 : GatherDims S16384x384 S262144x1 S262144x384 where
  offsetDims := [1]
  collapsedSliceDims := [0]
  operandBatchingDims := []
  startIndicesBatchingDims := []
  startIndexMap := [0]
  indexVectorDim := 1
  sliceSizes := ![1, 384]
  wf := gather_S16384x384_S262144x1_S262144x384_1_0_n_n_0_1_1384_wf

class Facts : Prop extends Facts₀ where

variable [Facts]
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.PreFacts.lean ====
/-
  What the precondition says of the arguments at the ideal instance.

  The precondition is a conjunction of five all-reductions: |f| < +∞, |distance| < +∞, |rf| < +∞, |knorm_w| < +∞ and
  distance ≥ 0, each over every entry of its array. Read entry by entry, the first says that every entry of f is a real,
  and the second with the fifth that every entry of distance is a non-negative real.
-/
import proofs.«163514_j38216619000515_2_alg».proof.Pre_finite_inputs
import proofs.«163514_j38216619000515_2_alg».proof.Proof.LibIdealSums
import Idealize.ShloMosaic.Lib.ReduceAll
import Idealize.ShloMosaic.Lib.Affine
import Idealize.ShloMosaic.Lib.ValueIdx
import Idealize.ShloMosaic.PureOps.Ideal.Laws

noncomputable section

namespace Cert.Agg

open Idealize.ShloMosaic Cert.Lib.IdealSums Cert.Pre_finite_inputs

instance : Subsingleton Cert.Pre_finite_inputs.S_.Idx := ⟨fun a b => funext fun d => d.elim0⟩

theorem vec_andi_apply {s : Shape} {w : Nat} (a b : IVec s w) (i : s.Idx) : andi a b i = IntOp.andi (a i) (b i) := rfl

/-- The comparison `x ≥ 0` as the float comparison computes it says that `x` is not negative. -/
theorem nonneg_of_cmpf_oge (x : Ideal .f32)
    (h : FloatOps.cmpf .oge x (FloatOps.ofBits (F := Ideal) .f32 0x00000000#32) = 1#1) : (0 : EReal) ≤ x := by
  have h' : Ideal.cmp .oge x (Ideal.ofBits .f32 0x00000000#32) = 1#1 := h
  rw [Ideal.ofBits_zero_f32] at h'
  unfold Ideal.cmp at h'
  by_cases hle : (0 : EReal) ≤ x
  · exact hle
  · simp [hle] at h'

/-- Under the precondition every entry of f is a real and every entry of distance is a non-negative real. -/
theorem pre_facts [Cert.Pre_finite_inputs.Facts] (a0 : FVec Ideal S128x129x384 .f32) (a1 : FVec Ideal S128x128x16 .f32)
    (a2 : FVec Ideal S129x384 .f32) (a3 : FVec Ideal S384 .f32) (a4 : IVec S128x128x16 32)
    (h : Cert.Pre_finite_inputs.fn (F := Ideal) a0 a1 a2 a3 a4 = fun _ => 1#1) :
    (∀ j, IsReal (a0 j)) ∧ (∀ j, ∃ r : ℝ, 0 ≤ r ∧ a1 j = (r : EReal)) := by
  have h0 := congrFun h ValueIdx.ix0
  dsimp only [Cert.Pre_finite_inputs.fn, Cert.Pre_finite_inputs.fn_part1] at h0
  simp only [vec_andi_apply, IntOp.andi_eq_one] at h0
  obtain ⟨⟨⟨⟨e0, e1⟩, e2⟩, e3⟩, e4⟩ := h0
  refine ⟨fun j => ?_, fun j => ?_⟩
  · exact isReal_of_cmpf_abs (a0 j) (Host.reduce_andi_all _ _ _ _ _ e0 j)
  · obtain ⟨r, hr⟩ := isReal_of_cmpf_abs (a1 j) (Host.reduce_andi_all _ _ _ _ _ e1 j)
    have hge : (0 : EReal) ≤ a1 j := nonneg_of_cmpf_oge (a1 j) (Host.reduce_andi_all _ _ _ _ _ e4 j)
    refine ⟨r, ?_, hr⟩
    rw [hr] at hge
    exact_mod_cast hge

end Cert.Agg

end
-- ==== Proof.KernelHost.lean ====
/-
  The arrays the kernel's region finds, as whole-array functions of the arguments.

  Before the region the host slices x = f[:, 1:, :] and the per-point bias rows rf[1:], computes the normalised
  inverse-distance weights, gathers the neighbours' rows and sums the weighted neighbours over the 16 neighbours of each
  point. Each of these arrays is, operation for operation, a stage the reference also computes — except the last one,
  where the reference first subtracts the centre from every neighbour. So the slices are named by the reference's own
  stages, and the weighted neighbour sum is `weightedSum`: the reference's weights times the reference's gathered
  neighbours, summed over the neighbour axis.
-/
import proofs.«163514_j38216619000515_2_alg».proof.Proof.Gen.KernelIdeal.Frame
import proofs.«163514_j38216619000515_2_alg».proof.Proof.Gen.ReferenceIdeal.Read
import Idealize.ShloMosaic.Lib.StableHlo.Run
import Idealize.ShloMosaic.PureOps.Ideal.Laws

set_option maxRecDepth 16384

open scoped BigOperators

noncomputable section

namespace Cert.Agg

open Idealize.ShloMosaic Idealize.ShloMosaic.TcCoe Idealize.SL.Sem Idealize.ShloMosaic.StableHlo

/-- The weighted neighbour sum Σ_g w[b, n, g] · nf[b, n, g, c] as a host stage: the reference's broadcast weights times
    the reference's gathered neighbours, summed over the neighbour axis from zero. -/
def weightedSum (x0 : (⟨Cert.ReferenceIdeal.S128x129x384, .f32⟩ : BufTy).Contents (Elt Ideal))
    (x1 : (⟨Cert.ReferenceIdeal.S128x128x16, .f32⟩ : BufTy).Contents (Elt Ideal))
    (x4 : (⟨Cert.ReferenceIdeal.S128x128x16, .i32⟩ : BufTy).Contents (Elt Ideal)) :
    (⟨Cert.ReferenceIdeal.S128x128x384, .f32⟩ : BufTy).Contents (Elt Ideal) :=
  Host.reduceAdd (F := Ideal) (φ := .f32)
    (mulf (F := Ideal) (s := Cert.ReferenceIdeal.S128x128x16x384) (φ := .f32)
      (Cert.ReferenceIdeal.Read.val_main_v28 (F := Ideal) x1) (Cert.ReferenceIdeal.Read.val_main_v12 (F := Ideal) x0 x4))
    (Cert.ReferenceIdeal.Read.val_main_cst_3 (F := Ideal))
    Cert.ReferenceIdeal.Facts₀.reducesTo_S128x128x16x384_S128x128x384_d2 Cert.ReferenceIdeal.Facts₀.h_S_

/-- At (b, n, c) the weighted neighbour sum is zero plus the sum over the 16 neighbours g of weight times neighbour. -/
theorem weightedSum_apply (x0 : (⟨Cert.ReferenceIdeal.S128x129x384, .f32⟩ : BufTy).Contents (Elt Ideal))
    (x1 : (⟨Cert.ReferenceIdeal.S128x128x16, .f32⟩ : BufTy).Contents (Elt Ideal))
    (x4 : (⟨Cert.ReferenceIdeal.S128x128x16, .i32⟩ : BufTy).Contents (Elt Ideal)) (i : Cert.ReferenceIdeal.S128x128x384.Idx) :
    weightedSum x0 x1 x4 i = (Ideal.ofBits .f32 0x00000000#32 : EReal)
      + ∑ k : Fin 16, ((Cert.ReferenceIdeal.Read.val_main_v28 (F := Ideal) x1 (Cert.ReferenceIdeal.Read.idx_main_v30 i k) : EReal)
          * (Cert.ReferenceIdeal.Read.val_main_v12 (F := Ideal) x0 x4 (Cert.ReferenceIdeal.Read.idx_main_v30 i k) : EReal)) := by
  have key : ∀ y0 : FVec Ideal Cert.ReferenceIdeal.S128x128x16x384 .f32,
      Host.reduceAdd (F := Ideal) (φ := .f32) y0 (Cert.ReferenceIdeal.Read.val_main_cst_3 (F := Ideal))
        Cert.ReferenceIdeal.Facts₀.reducesTo_S128x128x16x384_S128x128x384_d2 Cert.ReferenceIdeal.Facts₀.h_S_ i
      = (Ideal.ofBits .f32 0x00000000#32 : EReal) + ∑ k : Fin 16, (y0 (Cert.ReferenceIdeal.Read.idx_main_v30 i k) : EReal) := by
    intro y0
    simp only [Host.reduceAdd, Ideal.hostReduceAdd_def]
    rw [Ideal.hostReduceAdd_single Cert.ReferenceIdeal.Facts₀.reducesTo_S128x128x16x384_S128x128x384_d2 (by decide)]
    refine congrArg (_ + ·) (Finset.sum_congr rfl fun k _ => ?_)
    exact congrArg y0 (funext fun a => Fin.ext (by match a with | ⟨0, _⟩ => rfl | ⟨1, _⟩ => rfl | ⟨2, _⟩ => rfl | ⟨3, _⟩ => rfl))
  exact key _

open Cert.KernelIdeal Cert.KernelIdeal.Gen

variable (m : (ℓ : Loc nD τ sig) → Buf (Elt Ideal) ℓ) (c : Dev nD)

/-- The class-token slice f[:, 0:1, :] as the region (and the host line after it) finds it. -/
theorem V_cls : V m c main_v0 = Cert.ReferenceIdeal.Read.val_main_v0 (F := Ideal) (m ((c : Thread nD τ).loc main_arg0)) := by
  show StableHlo.after hostOps0 (fun b => m (c, b)) (Proc.devRef .tc main_v0) = _
  after_results_simp <;> rfl

/-- The points x = f[:, 1:, :] as the region finds them. -/
theorem V_x : V m c main_v1 = Cert.ReferenceIdeal.Read.val_main_v1 (F := Ideal) (m ((c : Thread nD τ).loc main_arg0)) := by
  show StableHlo.after hostOps0 (fun b => m (c, b)) (Proc.devRef .tc main_v1) = _
  after_results_simp <;> rfl

/-- The per-point bias rows rf[1:] as the region finds them. -/
theorem V_bias : V m c main_v2 = Cert.ReferenceIdeal.Read.val_main_v2 (F := Ideal) (m ((c : Thread nD τ).loc main_arg2)) := by
  show StableHlo.after hostOps0 (fun b => m (c, b)) (Proc.devRef .tc main_v2) = _
  after_results_simp <;> rfl

/-- The weighted neighbour sum as the region finds it. -/
theorem V_weightedSum : V m c main_v24 = weightedSum (m ((c : Thread nD τ).loc main_arg0)) (m ((c : Thread nD τ).loc main_arg1))
    (m ((c : Thread nD τ).loc main_arg4)) := by
  show StableHlo.after hostOps0 (fun b => m (c, b)) (Proc.devRef .tc main_v24) = _
  after_results_simp <;> rfl

end Cert.Agg

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibTrailingAxis.lean ====
/-
  Layout lemmas for per-row quantities of a rank-3 block, read at an index.

  A per-row scalar of an a×b×c block (a row mean, a row norm) lives in an a×b array, is re-shaped to a×b×1 so that
  arithmetic on it keeps a trailing unit axis, and is then broadcast along that axis to a×b×c. A per-column vector of
  c entries is re-shaped to 1×1×c and broadcast along the two leading axes. Each step reads one entry of its operand:
    * the a×b array viewed as a×b×1 reads (p, q) at (p, q, 0);
    * the a×b×1 array broadcast to a×b×c reads (p, q, 0) at (p, q, r);
    * the c-vector viewed as 1×1×c and broadcast to a×b×c reads r at (p, q, r).
-/
import Idealize.ShloMosaic.Lib.ValueIdx
import Idealize.ShloMosaic.Lib.Pipeline.Value

namespace Cert.Lib.TrailingAxis

open Idealize.ShloMosaic Idealize.ShloMosaic.ValueIdx

variable {α : Type} {a b c : Nat}

/-- An a×b array viewed as a×b×1 (a trailing unit axis added) reads its entry (p, q) at (p, q, u). -/
theorem addUnitLast_apply (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) := by
  refine shapeCast_apply x h _ _ ?_
  rw [Shape.rowMajor_val_two, Shape.rowMajor_val_three]
  have hu : u.val = 0 := by omega
  show p.val * b + q.val = (p.val * b + q.val) * 1 + u.val
  omega

/-- An a×b×1 array broadcast along its trailing unit axis to a×b×c reads its entry (p, q, 0) at (p, q, r). -/
theorem broadcastLast_apply (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q 0) :=
  broadcastTo_apply x h _ (ix3 p q 0) fun ax => by
    match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl

/-- A vector of c entries viewed as 1×1×c and broadcast along the two leading axes to a×b×c reads its entry r at
    (p, q, r). -/
theorem broadcastLeading2_apply (x : (⟨1, ![c]⟩ : Shape).Idx → α)
    (h₁ : (⟨1, ![c]⟩ : Shape).ShapeCasts ⟨3, ![1, 1, c]⟩)
    (h₂ : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ x h₁) h₂ (ix3 p q r) = x (ix1 r) := by
  refine (broadcastTo_apply _ h₂ _ (ix3 0 0 r) fun ax => ?_).trans ?_
  · match ax with
    | ⟨0, _⟩ => rfl
    | ⟨1, _⟩ => rfl
    | ⟨2, _⟩ =>
      show r.val = if c = 1 then 0 else r.val
      split_ifs with hc
      · have := r.isLt; omega
      · rfl
  · refine shapeCast_apply x h₁ _ _ ?_
    rw [Shape.rowMajor_val_one, Shape.rowMajor_val_three]
    show r.val = ((0 : Nat) * 1 + 0) * c + r.val
    omega

end Cert.Lib.TrailingAxis
-- ==== Proof.Body.lean ====
/-
  What the kernel body stores, read at an index of its 16×128×384 block.

  With x the block of points, s the block of weighted neighbour sums, c the 128×384 bias rows and k the 384 column
  weights, the body forms the centred feature sf = s − x and stores, at (p, q, r),
      (c[q, r] + x[p, q, r]) + sf[p, q, r] / sqrt( (Σ_j sf[p, q, j]²) / 384 + ε ) · k[r]
  — the residual plus the row-normalised centred feature. `rowTail` is that expression of one row of sf.
-/
import proofs.«163514_j38216619000515_2_alg».proof.Proof.Gen.KernelIdeal.Skeleton
import proofs.«163514_j38216619000515_2_alg».proof.Proof.LibBlockReads
import proofs.«163514_j38216619000515_2_alg».proof.Proof.LibTrailingAxis
import Idealize.ShloMosaic.Lib.ValueIdx
import Idealize.ShloMosaic.Lib.Pipeline.Value
import Idealize.ShloMosaic.PureOps.Ideal.Laws

open scoped BigOperators

noncomputable section

namespace Cert.Agg

open Idealize.ShloMosaic Idealize.ShloMosaic.ValueIdx Cert.Lib.BlockReads Cert.Lib.TrailingAxis

/-- The residual plus the row-normalised centred feature: for a row `sf` of 384 centred features, its entry `s`,
    the point's entry `x`, the bias entry `cc` and the column weight `k`,
    (cc + x) + s / sqrt((Σ_j sf_j²) / 384 + ε) · k, with 384 and ε the words the programs carry. -/
def rowTail (sf : Fin 384 → EReal) (s x cc k : EReal) : EReal :=
  (cc + x) + Ideal.div s (Ideal.sqrt (Ideal.div (∑ j, sf j * sf j) (Ideal.ofBits .f32 0x43C00000#32)
    + Ideal.ofBits .f32 0x358637BD#32)) * k

open Cert.KernelIdeal Cert.KernelIdeal.Gen

theorem sqrt_apply {s : Shape} {φ : FTy} (a : FVec Ideal s φ) (i : s.Idx) : sqrt a i = Ideal.sqrt (a i) := rfl

/-- The body's lane sum of a 16×128×384 block from the zero word, at row (p, q): the sum over the row. -/
theorem rowSum_apply (v : FVec Ideal S16x128x384 .f32) (hφ : FKind.Formats FTy.f32)
    (hacc : (0x00000000#32 : BitVec 32) = 0x00000000#32) (p : Fin 16) (q : Fin 128) :
    multiReduction .add [2] S16x128 v 0x00000000#32 reduces_S16x128x384_S16x128 hφ hacc (ix2 p q)
      = ∑ r : Fin 384, v (ix3 p q r) :=
  sum_last_axis_apply (a := 16) (b := 128) (c := 384) (φ := .f32) v 0x00000000#32 reduces_S16x128x384_S16x128 hφ hacc p q

/-- The body's stored value at (p, q, r) of the block. -/
theorem pay_apply (xb sb : Vec Ideal S16x128x384 .f32) (kn : Vec Ideal S384 .f32) (cb : Vec Ideal S128x384 .f32)
    (p : Fin 16) (q : Fin 128) (r : Fin 384) :
    k0_pay1 (F := Ideal) xb sb kn cb (ix3 p q r)
      = rowTail (fun j => sb (ix3 p q j) - xb (ix3 p q j)) (sb (ix3 p q r) - xb (ix3 p q r)) (xb (ix3 p q r))
          (cb (ix2 q r)) (kn (ix1 r)) := by
  unfold k0_pay1 rowTail
  simp only [shapeCast_self]
  simp only [addf_apply, mulf_apply, divf_apply, subf_apply, sqrt_apply, broadcast_apply, broadcast_slab_apply,
    broadcastLeading2_apply, broadcastLast_apply, addUnitLast_apply]
  rw [rowSum_apply]
  simp only [mulf_apply, subf_apply]
  rfl

end Cert.Agg

end
-- ==== Proof.Weights.lean ====
/-
  The arithmetic that joins the two programs, on the extended reals.

  Inverse-distance weights: for real distances d_k ≥ 0 and a real e > 0 put u_k = 1 / (d_k + e), S = 0 + Σ_k u_k and
  w_k = u_k / S. Every d_k + e is a positive real, so every u_k is a positive real, S is a positive real, every w_k is
  a real, and Σ_k w_k = S / S = 1.

  Centring: for real weights w_k with Σ_k w_k = 1, real values a_k and a real y,
      Σ_k w_k · (a_k − y) = (Σ_k w_k · a_k) − y · Σ_k w_k = (Σ_k w_k · a_k) − y.
  Both steps distribute a product over a sum, which holds for reals and fails at the infinities; this is why the
  inputs' finiteness and the sign of the distances are used.
-/
import proofs.«163514_j38216619000515_2_alg».proof.Proof.LibIdealSums

open scoped BigOperators

noncomputable section

namespace Cert.Agg

open Idealize.ShloMosaic Cert.Lib.IdealSums

/-- The word 0x3D4CCCCD (the 32-bit float nearest 0.05) denotes the positive real 13421773 / 2^28. -/
theorem eps_word : Ideal.ofBits .f32 0x3D4CCCCD#32 = ((13421773 / 268435456 : ℝ) : EReal) := by
  simp [Ideal.ofBits, Ideal.ieee, -EReal.coe_mul]; norm_num

/-- The word 0x3F800000 denotes 1. -/
theorem one_word : Ideal.ofBits .f32 0x3F800000#32 = 1 := by
  rw [← EReal.coe_one]
  simp [Ideal.ofBits, Ideal.ieee, -EReal.coe_mul, -EReal.coe_one] <;> norm_num

/-- The normalised inverse-distance weights of a nonempty finite family of non-negative real distances are reals and
    sum to one. -/
theorem weights_sum_one {ι : Type*} [Fintype ι] [Nonempty ι] (d : ι → EReal) (e : EReal) {er : ℝ} (he : e = (er : EReal))
    (hep : 0 < er) (hd : ∀ k, ∃ r : ℝ, 0 ≤ r ∧ d k = (r : EReal)) :
    (∀ k, IsReal (Ideal.div (Ideal.div 1 (d k + e)) (0 + ∑ j, Ideal.div 1 (d j + e))))
      ∧ ∑ k, Ideal.div (Ideal.div 1 (d k + e)) (0 + ∑ j, Ideal.div 1 (d j + e)) = 1 := by
  choose dr hdr0 hdr using hd
  have hpos : ∀ k, 0 < dr k + er := fun k => add_pos_of_nonneg_of_pos (hdr0 k) hep
  have hu : ∀ k, Ideal.div 1 (d k + e) = ((1 / (dr k + er) : ℝ) : EReal) := fun k => by
    rw [hdr k, he, ← EReal.coe_add, ← EReal.coe_one, div_coe_coe 1 (hpos k).ne']
  have hSpos : 0 < ∑ j, 1 / (dr j + er) :=
    Finset.sum_pos (fun j _ => one_div_pos.2 (hpos j)) Finset.univ_nonempty
  have hS : (0 : EReal) + ∑ j, Ideal.div 1 (d j + e) = ((∑ j, 1 / (dr j + er) : ℝ) : EReal) := by
    rw [zero_add, coe_sum_univ]
    exact Finset.sum_congr rfl fun j _ => hu j
  have hw : ∀ k, Ideal.div (Ideal.div 1 (d k + e)) (0 + ∑ j, Ideal.div 1 (d j + e))
      = ((1 / (dr k + er) / ∑ j, 1 / (dr j + er) : ℝ) : EReal) := fun k => by
    rw [hS, hu k, div_coe_coe _ hSpos.ne']
  refine ⟨fun k => ⟨_, hw k⟩, ?_⟩
  rw [Finset.sum_congr rfl fun k _ => hw k, ← coe_sum_univ, ← Finset.sum_div, div_self hSpos.ne', EReal.coe_one]

/-- Centring under weights that sum to one: the weighted sum of the differences from `y` is the weighted sum less
    `y`, for real weights, real values and a real `y`. -/
theorem centred_sum {ι : Type*} [Fintype ι] (w a : ι → EReal) (y : EReal)
    (hw : ∀ k, IsReal (w k)) (ha : ∀ k, IsReal (a k)) (hy : IsReal y) (h1 : ∑ k, w k = 1) :
    ∑ k, w k * (a k - y) = (∑ k, w k * a k) - y := by
  choose wr hwr using hw
  choose ar har using ha
  obtain ⟨yr, rfl⟩ := hy
  have h1' : ∑ k, wr k = 1 := by
    have h := h1
    rw [Finset.sum_congr rfl fun k _ => hwr k, ← coe_sum_univ] at h
    exact_mod_cast h
  rw [Finset.sum_congr rfl fun k _ => show w k * (a k - (yr : EReal)) = ((wr k * (ar k - yr) : ℝ) : EReal) by
        rw [hwr k, har k, ← EReal.coe_sub, ← EReal.coe_mul],
    Finset.sum_congr rfl fun k _ => show w k * a k = ((wr k * ar k : ℝ) : EReal) by
        rw [hwr k, har k, ← EReal.coe_mul],
    ← coe_sum_univ, ← coe_sum_univ, ← EReal.coe_sub]
  congr 1
  simp only [mul_sub, Finset.sum_sub_distrib, ← Finset.sum_mul, h1', one_mul]

end Cert.Agg

end
-- ==== Proof.RefRows.lean ====
/-
  The reference, read row by row.

  At (b, n, c) of its 128×128×384 result the reference holds the residual plus the row-normalised centred feature
  (`rowTail`) of the row sf[b, n, ·], where sf[b, n, c] = 0 + Σ_g w[b, n, g] · (nf[b, n, g, c] − x[b, n, c]): the
  neighbours are centred first and weighted afterwards. The weights are the normalised inverse distances, so for finite
  inputs and non-negative distances they are reals that sum to one, every gathered neighbour is an entry of x and hence
  a real, and the centred sum is the weighted neighbour sum less x[b, n, c] — the quantity the kernel's body forms.
-/
import proofs.«163514_j38216619000515_2_alg».proof.Proof.Gen.ReferenceIdeal.Read
import proofs.«163514_j38216619000515_2_alg».proof.Proof.KernelHost
import proofs.«163514_j38216619000515_2_alg».proof.Proof.Body
import proofs.«163514_j38216619000515_2_alg».proof.Proof.Weights
import Idealize.ShloMosaic.Lib.ValueIdx
import Idealize.ShloMosaic.PureOps.Ideal.Laws

set_option maxRecDepth 16384

open scoped BigOperators

noncomputable section

namespace Cert.Agg

open Idealize.ShloMosaic Idealize.ShloMosaic.ValueIdx Cert.Lib.IdealSums
open Cert.ReferenceIdeal Cert.ReferenceIdeal.Read

variable (x0 : (⟨S128x129x384, .f32⟩ : BufTy).Contents (Elt Ideal)) (x1 : (⟨S128x128x16, .f32⟩ : BufTy).Contents (Elt Ideal))
  (x2 : (⟨S129x384, .f32⟩ : BufTy).Contents (Elt Ideal)) (x3 : (⟨S384, .f32⟩ : BufTy).Contents (Elt Ideal))
  (x4 : (⟨S128x128x16, .i32⟩ : BufTy).Contents (Elt Ideal))

/-- The reference's result before the class token is put back, at (b, n, c): `rowTail` of the row of centred sums. -/
theorem ref_out_apply (b : Fin 128) (n : Fin 128) (ch : Fin 384) :
    val_main_v44 (F := Ideal) x0 x1 x2 x3 x4 (ix3 b n ch)
      = rowTail (fun j => val_main_v30 (F := Ideal) x0 x1 x4 (ix3 b n j)) (val_main_v30 (F := Ideal) x0 x1 x4 (ix3 b n ch))
          (val_main_v1 (F := Ideal) x0 (ix3 b n ch)) (val_main_v2 (F := Ideal) x2 (ix2 n ch)) (x3 (ix1 ch)) := by
  have e17 : idx_main_v16 (idx_main_v17 (ix3 b n ch)) = ix2 n ch :=
    funext fun a => Fin.ext (by match a with | ⟨0, _⟩ => rfl | ⟨1, _⟩ => rfl)
  have e42 : idx_main_v41 (idx_main_v42 (ix3 b n ch)) = ix1 ch :=
    funext fun a => Fin.ext (by match a with | ⟨0, _⟩ => rfl)
  have e32 : ∀ k : Fin 384, idx_main_v32 (idx_main_v33 (idx_main_v39 (ix3 b n ch))) k = ix3 b n k := fun k =>
    funext fun a => Fin.ext (by match a with | ⟨0, _⟩ => rfl | ⟨1, _⟩ => rfl | ⟨2, _⟩ => rfl)
  rw [val_main_v44_apply, val_main_v18_apply, val_main_v17_apply, val_main_v16_apply, val_main_v43_apply,
    val_main_v40_apply, val_main_v39_apply, val_main_v38_apply, val_main_v37_apply, val_main_v35_apply, val_main_v33_apply,
    val_main_v32_apply, val_main_v34_apply, val_main_cst_5_apply, val_main_v36_apply, val_main_cst_6_apply,
    val_main_v42_apply, val_main_v41_apply, val_main_cst_4_apply, e17, e42]
  simp only [e32, val_main_v31_apply]
  unfold rowTail
  simp only [Ideal.addf_def, Ideal.mulf_def, Ideal.hostDivf_def, Ideal.hostUnary_sqrt_def, Ideal.ofBits_def,
    Ideal.ofBits_zero_f32, zero_add]

/-- The normalised inverse-distance weight of neighbour k of point (b, n), as the reference broadcasts it. -/
theorem weight_apply (b n : Fin 128) (ch : Fin 384) (k : Fin 16) :
    val_main_v28 (F := Ideal) x1 (idx_main_v30 (ix3 b n ch) k)
      = Ideal.div (Ideal.div 1 (x1 (ix3 b n k) + Ideal.ofBits .f32 0x3D4CCCCD#32))
          (0 + ∑ j : Fin 16, Ideal.div 1 (x1 (ix3 b n j) + Ideal.ofBits .f32 0x3D4CCCCD#32)) := by
  have e27 : idx_main_v27 (idx_main_v28 (idx_main_v30 (ix3 b n ch) k)) = ix3 b n k :=
    funext fun a => Fin.ext (by match a with | ⟨0, _⟩ => rfl | ⟨1, _⟩ => rfl | ⟨2, _⟩ => rfl)
  have e23 : ∀ j : Fin 16, idx_main_v23 (idx_main_v24 (idx_main_v25 (ix3 b n k))) j = ix3 b n j := fun j =>
    funext fun a => Fin.ext (by match a with | ⟨0, _⟩ => rfl | ⟨1, _⟩ => rfl | ⟨2, _⟩ => rfl)
  have u : ∀ j' : S128x128x16.Idx, val_main_v22 (F := Ideal) x1 j' = Ideal.div 1 (x1 j' + Ideal.ofBits .f32 0x3D4CCCCD#32) := by
    intro j'
    rw [val_main_v22_apply, val_main_v21_apply, val_main_cst_1_apply, val_main_v20_apply, val_main_v19_apply, val_main_cst_apply]
    simp only [Ideal.hostDivf_def, Ideal.addf_def, Ideal.ofBits_def, one_word]
  rw [val_main_v28_apply, val_main_v27_apply, e27, val_main_v26_apply, val_main_v25_apply, val_main_v24_apply,
    val_main_v23_apply, val_main_cst_2_apply]
  simp only [e23, u, Ideal.hostDivf_def, Ideal.ofBits_def, Ideal.ofBits_zero_f32]

/-- Every gathered neighbour entry is an entry of the argument f, hence a real when f is finite. -/
theorem gathered_real (hx0 : ∀ j, IsReal (x0 j)) (j : S128x128x16x384.Idx) : IsReal (val_main_v12 (F := Ideal) x0 x4 j) := by
  rw [val_main_v12_apply]
  unfold val_main_v11 Host.gather
  show IsReal (val_main_v3 (F := Ideal) x0 _)
  rw [val_main_v3_apply, val_main_v1_apply]
  exact hx0 _

/-- Centring before or after the weighted sum: for finite f and finite non-negative distances the reference's centred
    sum is the weighted neighbour sum less the centre. -/
theorem ref_sf_centred (hx0 : ∀ j, IsReal (x0 j)) (hx1 : ∀ j, ∃ r : ℝ, 0 ≤ r ∧ x1 j = (r : EReal))
    (b n : Fin 128) (ch : Fin 384) :
    val_main_v30 (F := Ideal) x0 x1 x4 (ix3 b n ch)
      = weightedSum x0 x1 x4 (ix3 b n ch) - val_main_v1 (F := Ideal) x0 (ix3 b n ch) := by
  have hterm : ∀ k : Fin 16, val_main_v29 (F := Ideal) x0 x1 x4 (idx_main_v30 (ix3 b n ch) k)
      = val_main_v28 (F := Ideal) x1 (idx_main_v30 (ix3 b n ch) k)
          * (val_main_v12 (F := Ideal) x0 x4 (idx_main_v30 (ix3 b n ch) k) - val_main_v1 (F := Ideal) x0 (ix3 b n ch)) := by
    intro k
    have e : idx_main_v13 (idx_main_v14 (idx_main_v30 (ix3 b n ch) k)) = ix3 b n ch :=
      funext fun a => Fin.ext (by match a with | ⟨0, _⟩ => rfl | ⟨1, _⟩ => rfl | ⟨2, _⟩ => rfl)
    rw [val_main_v29_apply, val_main_v15_apply, val_main_v14_apply, val_main_v13_apply, e]
    rfl
  obtain ⟨er, hep, he⟩ : ∃ er : ℝ, 0 < er ∧ Ideal.ofBits .f32 0x3D4CCCCD#32 = (er : EReal) :=
    ⟨_, by norm_num, eps_word⟩
  have hw := weights_sum_one (fun k : Fin 16 => x1 (ix3 b n k)) (Ideal.ofBits .f32 0x3D4CCCCD#32) he hep
    (fun k => hx1 _)
  rw [val_main_v30_apply, weightedSum_apply, val_main_cst_3_apply, Ideal.ofBits_def, Ideal.ofBits_zero_f32, zero_add, zero_add]
  simp only [hterm, weight_apply]
  refine centred_sum _ _ _ hw.1 (fun k => gathered_real x0 x4 hx0 _) ?_ hw.2
  rw [val_main_v1_apply]; exact hx0 _

end Cert.Agg

end
-- ==== Proof.Point.lean ====
/-
  One entry of one block: the kernel body's stored value is the reference's value.

  Take a row (p, q) of a block and the row (b, n) of the whole arrays it is cut from. If along that row the body's x
  block is the points x, its s block is the weighted neighbour sum, and its bias and weight entries are the
  reference's, then the body's centred feature s − x is, entry by entry, the reference's centred sum (centring
  before or after the weighted sum agree for finite inputs and non-negative distances), and both programs apply the
  same residual-plus-normalisation `rowTail` to it.
-/
import proofs.«163514_j38216619000515_2_alg».proof.Proof.RefRows

set_option maxRecDepth 16384

open scoped BigOperators

noncomputable section

namespace Cert.Agg

open Idealize.ShloMosaic Idealize.ShloMosaic.ValueIdx Cert.Lib.IdealSums

/-- The body's stored value at (p, q, r) of a block is the reference's result at (b, n, r), given that row (p, q) of
    the block's inputs is row (b, n) of the arrays the region finds. -/
theorem point_eq
    (x0 : (⟨Cert.ReferenceIdeal.S128x129x384, .f32⟩ : BufTy).Contents (Elt Ideal))
    (x1 : (⟨Cert.ReferenceIdeal.S128x128x16, .f32⟩ : BufTy).Contents (Elt Ideal))
    (x2 : (⟨Cert.ReferenceIdeal.S129x384, .f32⟩ : BufTy).Contents (Elt Ideal))
    (x3 : (⟨Cert.ReferenceIdeal.S384, .f32⟩ : BufTy).Contents (Elt Ideal))
    (x4 : (⟨Cert.ReferenceIdeal.S128x128x16, .i32⟩ : BufTy).Contents (Elt Ideal))
    (hx0 : ∀ j, IsReal (x0 j)) (hx1 : ∀ j, ∃ r : ℝ, 0 ≤ r ∧ x1 j = (r : EReal))
    (xb sb : Vec Ideal Cert.KernelIdeal.S16x128x384 .f32) (kn : Vec Ideal Cert.KernelIdeal.S384 .f32)
    (cb : Vec Ideal Cert.KernelIdeal.S128x384 .f32)
    (p : Fin 16) (q : Fin 128) (r : Fin 384) (b n : Fin 128)
    (hxb : ∀ j : Fin 384, xb (ix3 p q j) = Cert.ReferenceIdeal.Read.val_main_v1 (F := Ideal) x0 (ix3 b n j))
    (hsb : ∀ j : Fin 384, sb (ix3 p q j) = weightedSum x0 x1 x4 (ix3 b n j))
    (hcb : cb (ix2 q r) = Cert.ReferenceIdeal.Read.val_main_v2 (F := Ideal) x2 (ix2 n r))
    (hkn : kn (ix1 r) = x3 (ix1 r)) :
    Cert.KernelIdeal.Gen.k0_pay1 (F := Ideal) xb sb kn cb (ix3 p q r)
      = Cert.ReferenceIdeal.Read.val_main_v44 (F := Ideal) x0 x1 x2 x3 x4 (ix3 b n r) := by
  rw [pay_apply, ref_out_apply]
  simp only [hxb, hsb, hcb, hkn, ref_sf_centred x0 x1 x4 hx0 hx1]

end Cert.Agg

end
-- ==== Proof.KernelArray.lean ====
/-
  From the blocks the kernel writes back to its whole output array.

  The grid has 8 points; point t stages rows 16·t … 16·t + 15 (all 128 points, all 384 channels) of the weighted
  neighbour sum and of x, the whole bias matrix and the whole weight vector, and writes back the same rows of the
  output. Entry (p, q, r) of what point t writes back is therefore the body's value on row (16·t + p, q) of the
  arrays the region finds, which is the reference's result at (16·t + p, q, r). The 8 blocks tile the array (row b lies
  in the block of point b / 16), so after the run the array is the reference's result everywhere.
-/
import proofs.«163514_j38216619000515_2_alg».proof.Proof.Point
import proofs.«163514_j38216619000515_2_alg».proof.Proof.KernelHost
import proofs.«163514_j38216619000515_2_alg».proof.Proof.Gen.KernelIdeal.Frame
import Idealize.ShloMosaic.Lib.Pipeline.Value

set_option maxRecDepth 16384

noncomputable section

namespace Cert.Agg

open Idealize.ShloMosaic Idealize.ShloMosaic.TcCoe Idealize.ShloMosaic.ValueIdx Idealize.SL.Sem Cert.Lib.IdealSums
open Idealize.ShloMosaic.Pipeline (Dat Cfg Window)
open Cert.KernelIdeal Cert.KernelIdeal.Gen

variable (m : (ℓ : Loc nD τ sig) → Buf (Elt Ideal) ℓ) (c : Dev nD)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The reference's result before the class token is put back, of the kernel's own arguments. -/
abbrev refOut : Buf (Elt Ideal) ((c : Thread nD τ).loc main_v25) :=
  Cert.ReferenceIdeal.Read.val_main_v44 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The printed index maps over the 8 grid points: the three row-blocked windows sit at block t of the leading axis,
    the bias matrix and the weight vector at their only block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0
    ∧ t.val < 8 :=
  (by decide +kernel : ∀ t : Fin grid0.N, _)

/-- What point t writes back is block t of the reference's result. -/
theorem flushed_eq (hx0 : ∀ j, IsReal (m ((c : Thread nD τ).loc main_arg0) j))
    (hx1 : ∀ j, ∃ r : ℝ, 0 ≤ r ∧ m ((c : Thread nD τ).loc main_arg1) j = (r : EReal)) (t : Fin cfg0.N) :
    (dats m 0 c).flushed 4 t = ((cfg0.win 4).blk t).view.read (Elt Ideal) (refOut m c) := by
  show (cfg0.win 4).cut (grid0.coords t) ((dats m 0 c).after 4 t) = _
  rw [after0_4]
  unfold out0_4
  rw [View.canon_unit_zero hz3]
  simp only [View.ld_unit_zero (S := S16x128x384) hz3, View.ld_unit_zero (S := S384) hz1, View.ld_unit_zero (S := S128x384) hz2]
  obtain ⟨a0, a1, a2, b0, b1, b2, c0, c1, d0, o0, o1, o2, ht⟩ := idx_facts t
  funext j
  obtain ⟨p, q, r, rfl⟩ : ∃ (p : Fin 16) (q : Fin 128) (r : Fin 384), j = ix3 p q r := ⟨j 0, j 1, j 2, eq_ix3 j⟩
  show k0_pay1 (F := Ideal) (iblk m c 1 t) (iblk m c 0 t) (iblk m c 3 t) (iblk m c 2 t) (ix3 p q r)
    = refOut m c (((cfg0.win 4).blk t).view.emb (ix3 p q r))
  have hrow : 16 * t.val + p.val < 128 := by have := p.isLt; omega
  have hemb : ((cfg0.win 4).blk t).view.emb (ix3 p q r) = ix3 (⟨16 * t.val + p.val, hrow⟩ : Fin 128) q r := by
    funext a; apply Fin.ext
    match a with
    | ⟨0, _⟩ => show win0_4.index t (0 : Fin 3) * 16 + 1 * p.val = 16 * t.val + p.val; omega
    | ⟨1, _⟩ => show win0_4.index t (1 : Fin 3) * 128 + 1 * q.val = q.val; omega
    | ⟨2, _⟩ => show win0_4.index t (2 : Fin 3) * 384 + 1 * r.val = r.val; omega
  rw [hemb]
  refine point_eq (m ((c : Thread nD τ).loc main_arg0)) (m ((c : Thread nD τ).loc main_arg1)) (m ((c : Thread nD τ).loc main_arg2))
    (m ((c : Thread nD τ).loc main_arg3)) (m ((c : Thread nD τ).loc main_arg4)) hx0 hx1
    (iblk m c 1 t) (iblk m c 0 t) (iblk m c 3 t) (iblk m c 2 t) p q r (⟨16 * t.val + p.val, hrow⟩ : Fin 128) q ?_ ?_ ?_ ?_
  · intro j'
    show V m c main_v1 (((cfg0.win 1).blk t).view.emb (ix3 p q j')) = _
    rw [V_x]
    refine congrArg _ (funext fun a => Fin.ext ?_)
    match a with
    | ⟨0, _⟩ => show win0_1.index t (0 : Fin 3) * 16 + 1 * p.val = 16 * t.val + p.val; omega
    | ⟨1, _⟩ => show win0_1.index t (1 : Fin 3) * 128 + 1 * q.val = q.val; omega
    | ⟨2, _⟩ => show win0_1.index t (2 : Fin 3) * 384 + 1 * j'.val = j'.val; omega
  · intro j'
    show V m c main_v24 (((cfg0.win 0).blk t).view.emb (ix3 p q j')) = _
    rw [V_weightedSum]
    refine congrArg _ (funext fun a => Fin.ext ?_)
    match a with
    | ⟨0, _⟩ => show win0_0.index t (0 : Fin 3) * 16 + 1 * p.val = 16 * t.val + p.val; omega
    | ⟨1, _⟩ => show win0_0.index t (1 : Fin 3) * 128 + 1 * q.val = q.val; omega
    | ⟨2, _⟩ => show win0_0.index t (2 : Fin 3) * 384 + 1 * j'.val = j'.val; omega
  · show V m c main_v2 (((cfg0.win 2).blk t).view.emb (ix2 q r)) = _
    rw [V_bias]
    refine congrArg _ (funext fun a => Fin.ext ?_)
    match a with
    | ⟨0, _⟩ => show win0_2.index t (0 : Fin 2) * 128 + 1 * q.val = q.val; omega
    | ⟨1, _⟩ => show win0_2.index t (1 : Fin 2) * 384 + 1 * r.val = r.val; omega
  · show V m c main_arg3 (((cfg0.win 3).blk t).view.emb (ix1 r)) = _
    rw [V_main_arg3]
    refine congrArg _ (funext fun a => Fin.ext ?_)
    match a with
    | ⟨0, _⟩ => show win0_3.index t (0 : Fin 1) * 384 + 1 * r.val = r.val; omega

/-- An index of the output array is in point t's block iff each coordinate is in the block's range on its axis. -/
theorem mem_blk (t : Fin cfg0.N) (i : S128x128x384.Idx) :
    i ∈ ((cfg0.win 4).blk t).view.set ↔ ∀ a : Fin 3, win0_4.index t a * S16x128x384.size a ≤ (i a).val
      ∧ (i a).val < win0_4.index t a * S16x128x384.size a + S16x128x384.size a := by
  show i ∈ ((View.whole main_v25).slice (win0_4.rect t)).set ↔ _
  rw [View.set_slice_whole, Rect.mem_set_unit]
  exact Iff.rfl

/-- Every index of the output array lies in the block of the point its leading coordinate names. -/
theorem cover (i : S128x128x384.Idx) : ∃ t : Fin cfg0.N, (cfg0.win 4).flush t = true ∧ i ∈ ((cfg0.win 4).blk t).view.set := by
  have hi0 : (i 0).val < 128 := (i 0).isLt
  have hi1 : (i 1).val < 128 := (i 1).isLt
  have hi2 : (i 2).val < 384 := (i 2).isLt
  have hN : (i 0).val / 16 < cfg0.N := by
    show (i 0).val / 16 < grid0.N
    rw [N_0]; omega
  refine ⟨⟨(i 0).val / 16, hN⟩, flush0_4 _, ?_⟩
  obtain ⟨-, -, -, -, -, -, -, -, -, o0, o1, o2, -⟩ := idx_facts ⟨(i 0).val / 16, hN⟩
  have o0' : win0_4.index ⟨(i 0).val / 16, hN⟩ (0 : Fin 3) = (i 0).val / 16 := o0
  rw [mem_blk]
  intro a
  match a with
  | ⟨0, _⟩ =>
    show win0_4.index ⟨(i 0).val / 16, hN⟩ (0 : Fin 3) * 16 ≤ (i 0).val
      ∧ (i 0).val < win0_4.index ⟨(i 0).val / 16, hN⟩ (0 : Fin 3) * 16 + 16
    omega
  | ⟨1, _⟩ =>
    show win0_4.index ⟨(i 0).val / 16, hN⟩ (1 : Fin 3) * 128 ≤ (i 1).val
      ∧ (i 1).val < win0_4.index ⟨(i 0).val / 16, hN⟩ (1 : Fin 3) * 128 + 128
    omega
  | ⟨2, _⟩ =>
    show win0_4.index ⟨(i 0).val / 16, hN⟩ (2 : Fin 3) * 384 ≤ (i 2).val
      ∧ (i 2).val < win0_4.index ⟨(i 0).val / 16, hN⟩ (2 : Fin 3) * 384 + 384
    omega

/-- After the run the kernel's output array is the reference's result, for finite f and finite non-negative distances. -/
theorem final (hx0 : ∀ j, IsReal (m ((c : Thread nD τ).loc main_arg0) j))
    (hx1 : ∀ j, ∃ r : ℝ, 0 ≤ r ∧ m ((c : Thread nD τ).loc main_arg1) j = (r : EReal)) :
    (dats m 0 c).arrAt 4 cfg0.N = refOut m c :=
  (dats m 0 c).arrAt_eq_of_cover 4 (refOut m c) (fun t _ => flushed_eq m c hx0 hx1 t) (cover)

end Cert.Agg

end
-- ==== Proof.KernelRun.lean ====
/-
  The kernel's run, read at its result.

  After the region the host joins the class-token slice f[:, 0:1, :] and the region's output array along the point
  axis. The slice is the reference's, the output array is the reference's result before the join (`final`), and the
  join is the reference's last operation: the kernel's result is the reference's result of the same arguments.
-/
import proofs.«163514_j38216619000515_2_alg».proof.Proof.KernelArray
import Idealize.ShloMosaic.Lib.StableHlo.Run

set_option maxRecDepth 16384

noncomputable section

namespace Cert.Agg

open Idealize.ShloMosaic Idealize.ShloMosaic.TcCoe Idealize.SL.Sem Cert.Lib.IdealSums Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- The reference's result of the kernel's own arguments. -/
abbrev refResult (c : Dev nD) : Buf (Elt Ideal) ((c : Thread nD τ).loc main_v26) :=
  Cert.ReferenceIdeal.Read.val_main_v45 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What the host line after the region leaves in the result buffer. -/
theorem tail_result (c : Dev nD) (hx0 : ∀ j, IsReal (m ((c : Thread nD τ).loc main_arg0) j))
    (hx1 : ∀ j, ∃ r : ℝ, 0 ≤ r ∧ m ((c : Thread nD τ).loc main_arg1) j = (r : EReal)) :
    Pipeline.afterTail₀ cfgs (dats m) 0 (V0 m) [hostOps1] c main_v26 = refResult m c := by
  unfold Pipeline.afterTail₀
  show StableHlo.after hostOps1 _ (Proc.devRef .tc main_v26) = _
  after_results
  rw [Pipeline.withArrays_of_ne _ c (V0 m c) _ main_v0 (by exact (by decide : ∀ w, Pipeline.arrRef spec0 w ≠ main_v0))]
  rw [show (V0 m c (Proc.devRef .tc main_v0)) = V m c main_v0 from rfl, V_cls]
  rw [(Pipeline.withArrays_arr spec0 launch0.win.arr_inj c _ _ 4).trans (final m c hx0 hx1)]
  rfl

/-- The kernel's run under the facts the precondition gives: every weakly fair execution terminates with the result
    buffer at the reference's result of the arguments and the arguments unchanged. -/
theorem run (hx0 : ∀ (c : Dev nD) j, IsReal (m ((c : Thread nD τ).loc main_arg0) j))
    (hx1 : ∀ (c : Dev nD) j, ∃ r : ℝ, 0 ≤ r ∧ m ((c : Thread nD τ).loc main_arg1) j = (r : EReal)) :
    θ_run defs (onTc (τ := τ) (main (F := Ideal))) ⟨m, fun _ => 0, ρ⟩ (fun r => ∀ c : Dev nD,
      r.2.mem ((c.tc : Thread nD τ).loc main_v26) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v26 (Pipeline.mem_restRefs_of main_v26 (by decide) (by decide))).trans (tail_result m c (hx0 c) (hx1 c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.Agg

end
-- ==== Proof.lean ====
/- The five claims of this certificate.

   The kernel and the reference both return f with its points x = f[:, 1:, :] replaced by
       (c + x) + rmsnorm(sf) · knorm_w,   c the bias rows rf[1:],
   where sf is the inverse-distance-weighted aggregate of each point's 16 gathered neighbours, centred at the point.
   They differ in where the centring happens: the reference subtracts x from every neighbour and then takes the
   weighted sum, Σ_g w_g · (nf_g − x); the kernel takes the weighted sum Σ_g w_g · nf_g on the host and subtracts x once
   inside the Pallas body. The two agree because the weights w_g = u_g / Σ u, u_g = 1 / (distance_g + 0.05), sum to
   one — which needs every u_g and their sum to be nonzero reals, and distributing the product over the sum needs
   every quantity to be a real. Finite inputs give the reals; non-negative distances give the nonzero denominators.
   Everything after sf (the row mean of squares, the square root, the quotient, the weights, the residual, the join with
   the class token) is the same function in both programs.

   Frames: the two kernel programs' by the generated frame proofs, the reference's from its generated run. The ideal
   pass rewrote nothing, so `preserves` is trivial. `algebraic`: the kernel's run ends with its result at the
   reference's own result term of the kernel's arguments (Proof/KernelRun.lean), and the reference's generated run ends
   at that term of its arguments, which agree. -/
import proofs.«163514_j38216619000515_2_alg».proof.Defs
import proofs.«163514_j38216619000515_2_alg».proof.Proof.Gen.Kernel
import proofs.«163514_j38216619000515_2_alg».proof.Proof.Gen.Kernel.Skeleton
import proofs.«163514_j38216619000515_2_alg».proof.Proof.Gen.Kernel.Launch
import proofs.«163514_j38216619000515_2_alg».proof.Proof.Gen.Kernel.Points
import proofs.«163514_j38216619000515_2_alg».proof.Proof.Gen.Kernel.Frame
import proofs.«163514_j38216619000515_2_alg».proof.Proof.Gen.KernelIdeal
import proofs.«163514_j38216619000515_2_alg».proof.Proof.Gen.KernelIdeal.Skeleton
import proofs.«163514_j38216619000515_2_alg».proof.Proof.Gen.KernelIdeal.Launch
import proofs.«163514_j38216619000515_2_alg».proof.Proof.Gen.KernelIdeal.Points
import proofs.«163514_j38216619000515_2_alg».proof.Proof.Gen.KernelIdeal.Frame
import proofs.«163514_j38216619000515_2_alg».proof.Proof.Gen.ReferenceIdeal
import proofs.«163514_j38216619000515_2_alg».proof.Proof.Gen.Pre_finite_inputs
import proofs.«163514_j38216619000515_2_alg».proof.Proof.Gen.ReferenceIdeal.Run
import proofs.«163514_j38216619000515_2_alg».proof.Proof.Gen.ReferenceIdeal.Read
import proofs.«163514_j38216619000515_2_alg».proof.Proof.PreFacts
import proofs.«163514_j38216619000515_2_alg».proof.Proof.KernelRun
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.Pre_finite_inputs.Facts] :
    Cert.frame_ReferenceIdeal (hReferenceIdeal := Cert.ReferenceIdeal.Gen.facts) :=
  fun m ρ _ => (θ_run Cert.ReferenceIdeal.defs _ _).mono (fun _ h c => (h c).2)
    (Cert.ReferenceIdeal.Value.run (F := Ideal) m ρ)

/-- Both idealized programs end at the reference's result term of the (agreeing) arguments. -/
theorem algebraic [Cert.Pre_finite_inputs.Facts] :
    Cert.algebraic_KernelIdeal_ReferenceIdeal (hKernelIdeal := Cert.KernelIdeal.Gen.facts)
      (hReferenceIdeal := Cert.ReferenceIdeal.Gen.facts) := by
  intro m ρ m' ρ' hpre hagree
  have hf := fun c => Cert.Agg.pre_facts _ _ _ _ _ (hpre c)
  refine ⟨fun c => Cert.Agg.refResult m c, Cert.Agg.run m ρ (fun c => (hf c).1) (fun c => (hf c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
